-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x16x32x32 : Shape := ⟨5, ![8, 64, 16, 32, 32]⟩
abbrev S512x64 : Shape := ⟨2, ![512, 64]⟩
abbrev S_ : Shape := ⟨0, ![]⟩

class Facts : Prop where
  bcast_S_S8x64x16x32x32 : S_.BroadcastsInDim S8x64x16x32x32 (![] : Fin 0 → Fin S8x64x16x32x32.rank)
  reducesTo_S8x64x16x32x32_S_d0_1_2_3_4 : S8x64x16x32x32.ReducesTo [0, 1, 2, 3, 4] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8x64x16x32x32 .f32) (main_arg1 : FVec F S512x64 .f32) : IVec S_ 1 :=
  let main_v0 : FVec F S8x64x16x32x32 .f32 := Host.absf main_arg0
  let main_cst : FVec F S_ .f32 := constant S_ .f32 0x7F800000#32
  let main_v1 : FVec F S8x64x16x32x32 .f32 := broadcastInDim S8x64x16x32x32 ![] bcast_S_S8x64x16x32x32 main_cst
  let main_v2 : IVec S8x64x16x32x32 1 := cmpf .olt main_v0 main_v1
  let main_c : IVec S_ 1 := constantI S_ 1 1#1
  let main_v3 : IVec S_ 1 := (fun x v => Host.reduce IntOp.andi x v reducesTo_S8x64x16x32x32_S_d0_1_2_3_4 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S8x64x16x32x32 : Shape := ⟨5, ![8, 64, 16, 32, 32]⟩
abbrev S512x64 : Shape := ⟨2, ![512, 64]⟩
abbrev S8x16x32x32x64 : Shape := ⟨5, ![8, 16, 32, 32, 64]⟩
abbrev S131072x64 : Shape := ⟨2, ![131072, 64]⟩
abbrev S64x512 : Shape := ⟨2, ![64, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S2048x64 : Shape := ⟨2, ![2048, 64]⟩
abbrev S2048 : Shape := ⟨1, ![2048]⟩
abbrev S2048x1 : Shape := ⟨2, ![2048, 1]⟩
abbrev S2048x512 : Shape := ⟨2, ![2048, 512]⟩

abbrev nBuf : Space → Nat
  | .hbm => 13
  | .vmem => 7
  | .smem => 0
  | _ => 0

abbrev bufTy : (tb : Table) → Fin (tcTables nBuf tb) → BufTy
  | .hbm, ⟨0, _⟩ => ⟨S8x64x16x32x32, .f32⟩
  | .hbm, ⟨1, _⟩ => ⟨S512x64, .f32⟩
  | .hbm, ⟨2, _⟩ => ⟨S8x16x32x32x64, .f32⟩
  | .hbm, ⟨3, _⟩ => ⟨S131072x64, .f32⟩
  | .hbm, ⟨4, _⟩ => ⟨S64x512, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S1x512, .f32⟩
  | .hbm, ⟨10, _⟩ => ⟨S131072x64, .f32⟩
  | .hbm, ⟨11, _⟩ => ⟨S8x16x32x32x64, .f32⟩
  | .hbm, ⟨12, _⟩ => ⟨S8x64x16x32x32, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S64x512, .f32⟩
  | .local _ .vmem, ⟨4, _⟩ => ⟨S1x512, .f32⟩
  | .local _ .vmem, ⟨5, _⟩ => ⟨S2048x64, .f32⟩
  | .local _ .vmem, ⟨6, _⟩ => ⟨S2048x64, .f32⟩
  | _, _ => ⟨S8x64x16x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8x64x16x32x32_S8x16x32x32x64_0_2_3_4_1 : S8x64x16x32x32.Transposes [0, 2, 3, 4, 1] S8x16x32x32x64
  shapeCasts_S8x16x32x32x64_S131072x64 : S8x16x32x32x64.ShapeCasts S131072x64
  transposes_S512x64_S64x512_1_0 : S512x64.Transposes [1, 0] S64x512
  reducesTo_S512x64_S512_d1 : S512x64.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  reduces_S2048x64_S2048 : S2048x64.Reduces [1] S2048
  shapeCasts_S2048_S2048x1 : S2048.ShapeCasts S2048x1
  broadcasts_S2048x1_S2048x512 : S2048x1.Broadcasts S2048x512
  broadcasts_S1x512_S2048x512 : S1x512.Broadcasts S2048x512
  reduces_S2048x512_S2048 : S2048x512.Reduces [1] S2048
  shapeCasts_S131072x64_S8x16x32x32x64 : S131072x64.ShapeCasts S8x16x32x32x64
  transposes_S8x16x32x32x64_S8x64x16x32x32_0_4_1_2_3 : S8x16x32x32x64.Transposes [0, 4, 1, 2, 3] S8x64x16x32x32
  dot_S2048x64_S64x512_S2048x512_1_0_0_1_n_n_wf : DotDims.WF S2048x64 S64x512 S2048x512 [1] [0] [0] [1] [] []
  dot_S2048x512_S512x64_S2048x64_1_0_0_1_n_n_wf : DotDims.WF S2048x512 S512x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S131072x64.size a
  hwx0_4 : ∀ i : grid0.Coords, EltTy.bits .f32 = 32 ∨ (Rect.block (s := S131072x64) S2048x64.size (cc0_transform_4 i) (hinb0_4 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf

abbrev win0_0 : Pipeline.Window sig grid0 :=
  Pipeline.Window.ofSpec (Memref.whole main_v1) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x16x32x32 : Shape := ⟨5, ![8, 64, 16, 32, 32]⟩
abbrev S512x64 : Shape := ⟨2, ![512, 64]⟩
abbrev S8x16x32x32x64 : Shape := ⟨5, ![8, 16, 32, 32, 64]⟩
abbrev S131072x64 : Shape := ⟨2, ![131072, 64]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S64x512 : Shape := ⟨2, ![64, 512]⟩

abbrev nBuf : Space → Nat
  | .hbm => 38
  | .vmem => 0
  | .smem => 0
  | _ => 0

abbrev bufTy : (tb : Table) → Fin (tcTables nBuf tb) → BufTy
  | .hbm, ⟨0, _⟩ => ⟨S8x64x16x32x32, .f32⟩
  | .hbm, ⟨1, _⟩ => ⟨S512x64, .f32⟩
  | .hbm, ⟨2, _⟩ => ⟨S8x16x32x32x64, .f32⟩
  | .hbm, ⟨3, _⟩ => ⟨S131072x64, .f32⟩
  | .hbm, ⟨4, _⟩ => ⟨S131072x64, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S512x64, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S64x512, .f32⟩
  | .hbm, ⟨16, _⟩ => ⟨S131072x512, .f32⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072x1, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S_, .f32⟩
  | .hbm, ⟨31, _⟩ => ⟨S131072, .f32⟩
  | .hbm, ⟨32, _⟩ => ⟨S131072x1, .f32⟩
  | .hbm, ⟨33, _⟩ => ⟨S131072x512, .f32⟩
  | .hbm, ⟨34, _⟩ => ⟨S131072x512, .f32⟩
  | .hbm, ⟨35, _⟩ => ⟨S131072x64, .f32⟩
  | .hbm, ⟨36, _⟩ => ⟨S8x16x32x32x64, .f32⟩
  | .hbm, ⟨37, _⟩ => ⟨S8x64x16x32x32, .f32⟩
  | _, _ => ⟨S8x64x16x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  transposes_S8x64x16x32x32_S8x16x32x32x64_0_2_3_4_1 : S8x64x16x32x32.Transposes [0, 2, 3, 4, 1] S8x16x32x32x64
  shapeCasts_S8x16x32x32x64_S131072x64 : S8x16x32x32x64.ShapeCasts S131072x64
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  reducesTo_S131072x512_S131072_d1 : S131072x512.ReducesTo [1] S131072
  bcast_S_S131072 : S_.BroadcastsInDim S131072 (![] : Fin 0 → Fin S131072.rank)
  shapeCasts_S131072x64_S8x16x32x32x64 : S131072x64.ShapeCasts S8x16x32x32x64
  transposes_S8x16x32x32x64_S8x64x16x32x32_0_4_1_2_3 : S8x16x32x32x64.Transposes [0, 4, 1, 2, 3] S8x64x16x32x32
  dot_S131072x64_S64x512_S131072x512_1_0_0_1_n_n_wf : DotDims.WF S131072x64 S64x512 S131072x512 [1] [0] [0] [1] [] []
  dot_S131072x512_S512x64_S131072x64_1_0_0_1_n_n_wf : DotDims.WF S131072x512 S512x64 S131072x64 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x512_S512x64_S131072x64_1_0_0_1_n_n : DotDims S131072x512 S512x64 S131072x64 where
  lhsContracting := [1]
  rhsContracting := [0]
  lhsNonContracting := [0]
  rhsNonContracting := [1]
  lhsBatch := []
  rhsBatch := []
  wf := dot_S131072x512_S512x64_S131072x64_1_0_0_1_n_n_wf

class Facts : Prop extends Facts₀ where

variable [Facts]
-- ==== Proof.Spec.lean ====
/-
  The soft codebook lookup, one row at a time, on the extended reals.

  A row `x` of 64 coordinates is compared with the 512 codebook entries through the scores
  `sqDist k = (Σ_d x_d² + ee_k) − 2 · Σ_d x_d · eT_{d,k}` (`eT` the codebook transposed, `ee_k` the squared norm of
  entry `k`): ‖x‖² + ‖e_k‖² − 2⟨x, e_k⟩. The scores become weights by a softmax over `k` (`softmaxOf`: shifted by the
  row's maximum `rowMaxOf`, exponentiated, divided by the row's sum), and the row's result is the weighted combination
  `Σ_k weight_k · e_{k,q}` of the entries (`mixRow`). `flatMix` is that row function on every row of a flat
  [131072, 64] array. Every operation is the exact one of the extended reals; the two literals (2 and −∞) stay the
  words the programs carry.
-/
import Idealize.ShloMosaic.PureOps.Ideal
import Idealize.ShloMosaic.Lib.ValueIdx

noncomputable section

open scoped BigOperators

namespace Cert.Codebook

open Idealize.ShloMosaic Idealize.ShloMosaic.ValueIdx

/-- The score of a row against codebook entry `k`: ‖x‖² + ‖e_k‖² − 2 ⟨x, e_k⟩, the entry's squared norm `ee k` and
    the transposed codebook `eT` given. -/
def sqDist (x : Fin 64 → EReal) (eT : Fin 64 → Fin 512 → EReal) (ee : Fin 512 → EReal) (k : Fin 512) : EReal :=
  (∑ d : Fin 64, x d * x d + ee k) - Ideal.ofBits .f32 0x40000000#32 * ∑ d : Fin 64, x d * eT d k

/-- A row's largest score: the maximum from −∞ over the entries, taken once more against −∞ (as a softmax spells it). -/
def rowMaxOf (g : Fin 512 → EReal) : EReal :=
  max (Ideal.ofBits .f32 0xFF800000#32) ((Finset.univ : Finset (Fin 512)).fold max (Ideal.ofBits .f32 0xFF800000#32) g)

/-- The softmax of a row of scores at entry `k`: the exponential of the score less the row's maximum, over the sum
    of those exponentials. -/
def softmaxOf (g : Fin 512 → EReal) (k : Fin 512) : EReal :=
  Ideal.div (Ideal.exp (g k - rowMaxOf g)) (∑ k' : Fin 512, Ideal.exp (g k' - rowMaxOf g))

/-- The row's result at coordinate `q`: the codebook entries combined with the softmax weights of the row's scores. -/
def mixRow (x : Fin 64 → EReal) (e : Fin 512 → Fin 64 → EReal) (eT : Fin 64 → Fin 512 → EReal) (ee : Fin 512 → EReal)
    (q : Fin 64) : EReal :=
  ∑ k : Fin 512, softmaxOf (sqDist x eT ee) k * e k q

/-- The row function on every row of the flat array: entry (r, q) of the result depends on row `r` of `x` and on the
    whole codebook (as `e`, its transpose `eT` and its squared norms `ee`). -/
def flatMix (x : (⟨2, ![131072, 64]⟩ : Shape).Idx → EReal) (e : (⟨2, ![512, 64]⟩ : Shape).Idx → EReal)
    (eT : (⟨2, ![64, 512]⟩ : Shape).Idx → EReal) (ee : Fin 512 → EReal) : (⟨2, ![131072, 64]⟩ : Shape).Idx → EReal :=
  fun i => mixRow (fun d => x (ix2 (i 0) d)) (fun k d => e (ix2 k d)) (fun d k => eT (ix2 d k)) ee (i 1)

/-- The closing regrouping both programs apply to the flat result: [131072, 64] seen as [8, 16, 32, 32, 64], then the last
    axis moved to the second place, [8, 64, 16, 32, 32]. -/
def unflatten (y : (⟨2, ![131072, 64]⟩ : Shape).Idx → EReal) : (⟨5, ![8, 64, 16, 32, 32]⟩ : Shape).Idx → EReal :=
  transpose (⟨5, ![8, 64, 16, 32, 32]⟩ : Shape) [0, 4, 1, 2, 3]
    (shapeCast (⟨5, ![8, 16, 32, 32, 64]⟩ : Shape) y (by decide)) (by decide)

end Cert.Codebook

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«122749_j70703751627105_1_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSplitContraction.lean ====
/-
  Two general facts about contractions, for any sizes.

  * `sum_joined`: a sum over `Fin (p + q)` whose first `p` terms are `f` and whose last `q` terms are `g` is
    the sum of `f` plus the sum of `g` (any commutative monoid; on the extended reals no finiteness is
    needed).  It joins a product taken over a concatenated axis with the two products taken piece by piece.
  * `matmul_zero_at`: a matrix product (rows × contracted axis, contracted axis × columns) into the zero
    accumulator, read at entry (r, c) at the ideal instance, is the sum over the contracted axis of
    `lhs[r,k] · rhs[k,c]`.
-/
import Idealize.ShloMosaic.PureOps.Ideal.Laws
import Idealize.ShloMosaic.Lib.ValueIdx

noncomputable section

namespace Cert.Lib.SplitContraction

open Idealize.ShloMosaic Idealize.ShloMosaic.ValueIdx

/-- A sum over the joined axis, whose first `p` terms are `f` and whose last `q` terms are `g`, is the
    sum of `f` plus the sum of `g`. -/
theorem sum_joined {M : Type} [AddCommMonoid M] (p q : Nat) (h : Fin (p + q) → M) (f : Fin p → M) (g : Fin q → M)
    (hf : ∀ k : Fin p, h (Fin.castAdd q k) = f k) (hg : ∀ k : Fin q, h (Fin.natAdd p k) = g k) :
    ∑ k : Fin (p + q), h k = ∑ k : Fin p, f k + ∑ k : Fin q, g k := by
  rw [Fin.sum_univ_add]
  exact congrArg₂ (· + ·) (Finset.sum_congr rfl fun k _ => hf k) (Finset.sum_congr rfl fun k _ => hg k)

/-- A matrix product (rows × contracted axis, contracted axis × columns) into the zero accumulator, read
    at entry (r, c): the sum over the contracted axis of the row's entries times the column's.  The four
    hypotheses name the coordinates of the operands' indices at an output index and a contraction index
    (for a printed dimension record: two by unfolding the index maps, two by the library's
    `lhsIdx_val_of_single` / `rhsIdx_val_of_single`). -/
theorem matmul_zero_at {n K d : Nat} {φ₁ φ₂ : FTy}
    (D : DotDims ⟨2, ![n, K]⟩ ⟨2, ![K, d]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (q ⟨0, by omega⟩).val)
    (hr1 : ∀ j q, (D.rhsIdx j q 1).val = (j 1).val)
    (prec : Option ContractPrecision)
    (lhs : FVec Ideal ⟨2, ![n, K]⟩ φ₁) (rhs : FVec Ideal ⟨2, ![K, d]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

end Cert.Lib.SplitContraction

end
-- ==== Proof.BlockValue.lean ====
/-
  What the kernel's body computes for one block of 2048 rows, read entry by entry on the extended reals.

  The body is three stages: `scores` (the block's [2048, 512] table of squared-distance scores against the codebook,
  from the block's row norms, the codebook's squared norms and one matrix product), `softmaxRows` (a softmax along
  each row) and `combine` (a second matrix product with the codebook). Entry (p, q) of the result is the row function
  `Cert.Codebook.mixRow` of row `p` of the block and of the codebook: a change of float format is the identity here,
  a matrix product into the zero accumulator is the plain sum of products, a lane sum is the sum over the row and a lane
  maximum from −∞ the fold of `max` over it.
-/
import proofs.«122749_j70703751627105_1_alg».proof.Proof.Gen.KernelIdeal.Skeleton
import proofs.«122749_j70703751627105_1_alg».proof.Proof.Spec
import proofs.«122749_j70703751627105_1_alg».proof.Proof.LibRowReduceColumn
import proofs.«122749_j70703751627105_1_alg».proof.Proof.LibColumnBroadcast
import proofs.«122749_j70703751627105_1_alg».proof.Proof.LibSplitContraction
import Idealize.ShloMosaic.Lib.Pipeline.Value
import Idealize.ShloMosaic.Lib.ValueLayout

noncomputable section

open scoped BigOperators

namespace Cert.KernelIdeal.Block

open Cert.KernelIdeal Cert.KernelIdeal.Gen Idealize.ShloMosaic Idealize.ShloMosaic.ValueIdx Cert.Codebook

/-! ## The body's three stages -/

/-- The block's scores: (row norm² + entry norm²) − 2 · (rows × transposed codebook). -/
def scores (x : FVec Ideal S2048x64 .f32) (eT : FVec Ideal S64x512 .f32) (ee : FVec Ideal S1x512 .f32) : FVec Ideal S2048x512 .f32 :=
  subf
    (addf
      (broadcastTo S2048x512
        (shapeCast S2048x1 (multiReduction .add [1] S2048 (mulf x x) 0x00000000#32 reduces_S2048x64_S2048 (.inl rfl) rfl) shapeCasts_S2048_S2048x1)
        broadcasts_S2048x1_S2048x512)
      (broadcastTo S2048x512 ee broadcasts_S1x512_S2048x512))
    (mulf (broadcast S2048x512 (Scalar.ofBits (F := Ideal) .f32 0x40000000#32))
      (matmul dot_S2048x64_S64x512_S2048x512_1_0_0_1_n_n none (truncf .bf16 x bitsLt_bf16_f32) (truncf .bf16 eT bitsLt_bf16_f32)
        (constant S2048x512 .f32 0x00000000#32)))

/-- The exponentials of the scores less each row's maximum. -/
def shifted (s : FVec Ideal S2048x512 .f32) : FVec Ideal S2048x512 .f32 :=
  exp (subf s
    (broadcastTo S2048x512
      (shapeCast S2048x1
        (maximumf (broadcast S2048 (Scalar.ofBits (F := Ideal) .f32 0xFF800000#32))
          (multiReduction .maximumf [1] S2048 s 0xFF800000#32 reduces_S2048x512_S2048 (.inl rfl) rfl))
        shapeCasts_S2048_S2048x1)
      broadcasts_S2048x1_S2048x512))

/-- The softmax along each row. -/
def softmaxRows (s : FVec Ideal S2048x512 .f32) : FVec Ideal S2048x512 .f32 :=
  divf (shifted s)
    (broadcastTo S2048x512
      (shapeCast S2048x1 (multiReduction .add [1] S2048 (shifted s) 0x00000000#32 reduces_S2048x512_S2048 (.inl rfl) rfl) shapeCasts_S2048_S2048x1)
      broadcasts_S2048x1_S2048x512)

/-- The weights times the codebook. -/
def combine (w : FVec Ideal S2048x512 .f32) (e : FVec Ideal S512x64 .f32) : FVec Ideal S2048x64 .f32 :=
  matmul dot_S2048x512_S512x64_S2048x64_1_0_0_1_n_n none (truncf .bf16 w bitsLt_bf16_f32) (truncf .bf16 e bitsLt_bf16_f32)
    (constant S2048x64 .f32 0x00000000#32)

/-- The body's one stored value is the three stages composed (its shape casts to the same shape are the identity). -/
theorem pay_eq (x0 : Vec Ideal S2048x64 .f32) (x1 : Vec Ideal S512x64 .f32) (x2 : Vec Ideal S64x512 .f32) (x3 : Vec Ideal S1x512 .f32) :
    k0_pay1 (F := Ideal) x0 x1 x2 x3 = combine (softmaxRows (scores x0 x2 x3)) x1 := by
  unfold k0_pay1 combine softmaxRows shifted scores
  simp only [shapeCast_self]

/-! ## The two matrix products' index maps, coordinate by coordinate -/

theorem scoreL0 (j : S2048x512.Idx) (q : dot_S2048x64_S64x512_S2048x512_1_0_0_1_n_n.contr.Idx) :
    (dot_S2048x64_S64x512_S2048x512_1_0_0_1_n_n.lhsIdx j q 0).val = (j 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem scoreL1 (j : S2048x512.Idx) (q : dot_S2048x64_S64x512_S2048x512_1_0_0_1_n_n.contr.Idx) :
    (dot_S2048x64_S64x512_S2048x512_1_0_0_1_n_n.lhsIdx j q 1).val = (q ⟨0, by decide⟩).val :=
  dot_S2048x64_S64x512_S2048x512_1_0_0_1_n_n.lhsIdx_val_of_single rfl j q
theorem scoreR0 (j : S2048x512.Idx) (q : dot_S2048x64_S64x512_S2048x512_1_0_0_1_n_n.contr.Idx) :
    (dot_S2048x64_S64x512_S2048x512_1_0_0_1_n_n.rhsIdx j q 0).val = (q ⟨0, by decide⟩).val :=
  dot_S2048x64_S64x512_S2048x512_1_0_0_1_n_n.rhsIdx_val_of_single rfl j q
theorem scoreR1 (j : S2048x512.Idx) (q : dot_S2048x64_S64x512_S2048x512_1_0_0_1_n_n.contr.Idx) :
    (dot_S2048x64_S64x512_S2048x512_1_0_0_1_n_n.rhsIdx j q 1).val = (j 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl

theorem mixL0 (j : S2048x64.Idx) (q : dot_S2048x512_S512x64_S2048x64_1_0_0_1_n_n.contr.Idx) :
    (dot_S2048x512_S512x64_S2048x64_1_0_0_1_n_n.lhsIdx j q 0).val = (j 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem mixL1 (j : S2048x64.Idx) (q : dot_S2048x512_S512x64_S2048x64_1_0_0_1_n_n.contr.Idx) :
    (dot_S2048x512_S512x64_S2048x64_1_0_0_1_n_n.lhsIdx j q 1).val = (q ⟨0, by decide⟩).val :=
  dot_S2048x512_S512x64_S2048x64_1_0_0_1_n_n.lhsIdx_val_of_single rfl j q
theorem mixR0 (j : S2048x64.Idx) (q : dot_S2048x512_S512x64_S2048x64_1_0_0_1_n_n.contr.Idx) :
    (dot_S2048x512_S512x64_S2048x64_1_0_0_1_n_n.rhsIdx j q 0).val = (q ⟨0, by decide⟩).val :=
  dot_S2048x512_S512x64_S2048x64_1_0_0_1_n_n.rhsIdx_val_of_single rfl j q
theorem mixR1 (j : S2048x64.Idx) (q : dot_S2048x512_S512x64_S2048x64_1_0_0_1_n_n.contr.Idx) :
    (dot_S2048x512_S512x64_S2048x64_1_0_0_1_n_n.rhsIdx j q 1).val = (j 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-! ## The stages read at an entry -/

/-- Entry (p, k) of the scores is the score of row `p` against codebook entry `k`. -/
theorem scores_apply (x : FVec Ideal S2048x64 .f32) (eT : FVec Ideal S64x512 .f32) (ee : FVec Ideal S1x512 .f32)
    (p : Fin 2048) (k : Fin 512) :
    scores x eT ee (ix2 p k)
      = sqDist (fun d => x (ix2 p d)) (fun d k => eT (ix2 d k)) (fun k => ee (ix2 (0 : Fin 1) k)) k := by
  have h1 : broadcastTo S2048x512
        (shapeCast S2048x1 (multiReduction .add [1] S2048 (mulf x x) 0x00000000#32 reduces_S2048x64_S2048 (.inl rfl) rfl) shapeCasts_S2048_S2048x1)
        broadcasts_S2048x1_S2048x512 (ix2 p k) = ∑ d : Fin 64, x (ix2 p d) * x (ix2 p d) :=
    (broadcastTo_a1_ab_apply _ broadcasts_S2048x1_S2048x512 p k).trans
      (Cert.Lib.RowReduceColumn.rowSum_column_apply (mulf x x) reduces_S2048x64_S2048 (.inl rfl) rfl shapeCasts_S2048_S2048x1 p 0)
  have h2 : broadcastTo S2048x512 ee broadcasts_S1x512_S2048x512 (ix2 p k) = ee (ix2 (0 : Fin 1) k) :=
    broadcastTo_1b_ab_apply ee broadcasts_S1x512_S2048x512 p k
  have h3 : matmul dot_S2048x64_S64x512_S2048x512_1_0_0_1_n_n none (truncf .bf16 x bitsLt_bf16_f32) (truncf .bf16 eT bitsLt_bf16_f32)
        (constant S2048x512 .f32 0x00000000#32) (ix2 p k) = ∑ d : Fin 64, x (ix2 p d) * eT (ix2 d k) :=
    Cert.Lib.SplitContraction.matmul_zero_at dot_S2048x64_S64x512_S2048x512_1_0_0_1_n_n rfl rfl scoreL0 scoreL1 scoreR0 scoreR1 none
      (truncf .bf16 x bitsLt_bf16_f32) (truncf .bf16 eT bitsLt_bf16_f32) p k
  unfold scores sqDist
  exact congrArg₂ (· - ·) (congrArg₂ (· + ·) h1 h2) (congrArg (Ideal.ofBits .f32 0x40000000#32 * ·) h3)

/-- Entry (p, k) of the softmax along the rows is the softmax of row `p` at `k`. -/
theorem softmaxRows_apply (s : FVec Ideal S2048x512 .f32) (p : Fin 2048) (k : Fin 512) :
    softmaxRows s (ix2 p k) = softmaxOf (fun k' => s (ix2 p k')) k := by
  have hmax : ∀ k' : Fin 512, broadcastTo S2048x512
      (shapeCast S2048x1
        (maximumf (broadcast S2048 (Scalar.ofBits (F := Ideal) .f32 0xFF800000#32))
          (multiReduction .maximumf [1] S2048 s 0xFF800000#32 reduces_S2048x512_S2048 (.inl rfl) rfl))
        shapeCasts_S2048_S2048x1)
      broadcasts_S2048x1_S2048x512 (ix2 p k') = rowMaxOf (fun k' => s (ix2 p k')) := fun k' =>
    (broadcastTo_a1_ab_apply _ broadcasts_S2048x1_S2048x512 p k').trans
      (Cert.Lib.RowReduceColumn.rowMax_column_apply s reduces_S2048x512_S2048 (.inl rfl) rfl shapeCasts_S2048_S2048x1 p 0)
  have hsh : ∀ k' : Fin 512, shifted s (ix2 p k') = Ideal.exp (s (ix2 p k') - rowMaxOf (fun k' => s (ix2 p k'))) := fun k' => by
    unfold shifted
    exact congrArg (fun m => Ideal.exp (s (ix2 p k') - m)) (hmax k')
  have hsum : broadcastTo S2048x512
      (shapeCast S2048x1 (multiReduction .add [1] S2048 (shifted s) 0x00000000#32 reduces_S2048x512_S2048 (.inl rfl) rfl) shapeCasts_S2048_S2048x1)
      broadcasts_S2048x1_S2048x512 (ix2 p k) = ∑ k' : Fin 512, Ideal.exp (s (ix2 p k') - rowMaxOf (fun k' => s (ix2 p k'))) :=
    (broadcastTo_a1_ab_apply _ broadcasts_S2048x1_S2048x512 p k).trans
      ((Cert.Lib.RowReduceColumn.rowSum_column_apply (shifted s) reduces_S2048x512_S2048 (.inl rfl) rfl shapeCasts_S2048_S2048x1 p 0).trans
        (Finset.sum_congr rfl fun k' _ => hsh k'))
  unfold softmaxRows softmaxOf
  exact congrArg₂ Ideal.div (hsh k) hsum

/-- Entry (p, q) of the weights times the codebook is the sum over the entries. -/
theorem combine_apply (w : FVec Ideal S2048x512 .f32) (e : FVec Ideal S512x64 .f32) (p : Fin 2048) (q : Fin 64) :
    combine w e (ix2 p q) = ∑ k : Fin 512, w (ix2 p k) * e (ix2 k q) :=
  Cert.Lib.SplitContraction.matmul_zero_at dot_S2048x512_S512x64_S2048x64_1_0_0_1_n_n rfl rfl mixL0 mixL1 mixR0 mixR1 none
    (truncf .bf16 w bitsLt_bf16_f32) (truncf .bf16 e bitsLt_bf16_f32) p q

/-- THE BODY'S VALUE at entry (p, q) of the block: the row function of row `p` of the loaded block of rows and of
    the loaded codebook, its transpose and its squared norms. -/
theorem pay_apply (x0 : Vec Ideal S2048x64 .f32) (x1 : Vec Ideal S512x64 .f32) (x2 : Vec Ideal S64x512 .f32) (x3 : Vec Ideal S1x512 .f32)
    (p : Fin 2048) (q : Fin 64) :
    k0_pay1 (F := Ideal) x0 x1 x2 x3 (ix2 p q)
      = mixRow (fun d => x0 (ix2 p d)) (fun k d => x1 (ix2 k d)) (fun d k => x2 (ix2 d k)) (fun k => x3 (ix2 (0 : Fin 1) k)) q := by
  rw [pay_eq]
  refine (combine_apply _ x1 p q).trans ?_
  unfold mixRow
  refine Finset.sum_congr rfl fun k _ => ?_
  refine congrArg (· * x1 (ix2 k q)) ?_
  refine (softmaxRows_apply _ p k).trans ?_
  exact congrArg (fun g => softmaxOf g k) (funext fun k' => scores_apply x0 x2 x3 p k')

end Cert.KernelIdeal.Block

end
-- ==== Proof.KernelWhole.lean ====
/-
  From the kernel's blocks to its result array, and on through the host lines after the call.

  The grid has 64 points; point `t` reads rows 2048·t … 2048·t + 2047 of the flattened input (window 0), the whole
  codebook, its transpose and its squared norms (windows 1–3, the same block at every point), and writes rows
  2048·t … of the [131072, 64] result (window 4). Since the body's value at entry (p, q) of a block is the row function
  of row `p` of the block (`Block.pay_apply`), what point `t` writes back is block `t` of ONE whole-array function
  (`flatMix` of the arrays as the call finds them), the 64 blocks tile the result, and so the result array is that
  function. The two host lines after the call reshape and transpose it (`unflatten`).
-/
import proofs.«122749_j70703751627105_1_alg».proof.Proof.Gen.KernelIdeal.Frame
import proofs.«122749_j70703751627105_1_alg».proof.Proof.BlockValue
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.Codebook
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The flat result as one function of the arrays the call finds: the flattened input, the codebook, its transpose, and
    the one row of its squared norms. -/
abbrev flatResult (c : Dev nD) : S131072x64.Idx → EReal :=
  flatMix (V m c main_v1) (V m c main_arg1) (V m c main_v2) (fun k => V m c main_v6 (ix2 (0 : Fin 1) k))

/-- The printed index maps, decided over the 64 points: the input rows move with the output rows, every other block
    index is 0. -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 63 :=
  (by decide +kernel : ∀ t : Fin grid0.N, _)

/-- Every block of rows is some point's. -/
theorem idx_onto : ∀ q0 : Fin 64, ∃ t : Fin cfg0.N, win0_4.index t = ![q0.val, 0] :=
  (by decide +kernel : ∀ q0 : Fin 64, ∃ t : Fin grid0.N, win0_4.index t = ![q0.val, 0])

/-- A block's value against the whole-array function, over variables: if the loaded blocks are the arrays read where
    block `b` of rows says, the body's value at a block index is `flatMix` of the arrays at the matching array index. -/
theorem block_of_flat (X : S131072x64.Idx → EReal) (E : S512x64.Idx → EReal) (ET : S64x512.Idx → EReal) (EE : S1x512.Idx → EReal)
    (x0 : Vec Ideal S2048x64 .f32) (x1 : Vec Ideal S512x64 .f32) (x2 : Vec Ideal S64x512 .f32) (x3 : Vec Ideal S1x512 .f32)
    (b : ℕ) (hb : b ≤ 63)
    (h0 : ∀ (p : Fin 2048) (d : Fin 64), x0 (ix2 p d) = X (ix2 (⟨b * 2048 + p.val, by have := p.isLt; omega⟩ : Fin 131072) d))
    (h1 : ∀ (k : Fin 512) (d : Fin 64), x1 (ix2 k d) = E (ix2 k d))
    (h2 : ∀ (d : Fin 64) (k : Fin 512), x2 (ix2 d k) = ET (ix2 d k))
    (h3 : ∀ k : Fin 512, x3 (ix2 (0 : Fin 1) k) = EE (ix2 (0 : Fin 1) k))
    (j : S2048x64.Idx) (i : S131072x64.Idx) (hi0 : (i 0).val = b * 2048 + (j 0).val) (hi1 : (i 1).val = (j 1).val) :
    k0_pay1 (F := Ideal) x0 x1 x2 x3 j = flatMix X E ET (fun k => EE (ix2 (0 : Fin 1) k)) i := by
  obtain ⟨p, q, rfl⟩ : ∃ (p : Fin 2048) (q : Fin 64), j = ix2 p q := ⟨j 0, j 1, eq_ix2 j⟩
  rw [Block.pay_apply]
  unfold flatMix
  have hr : i 0 = (⟨b * 2048 + p.val, by have := p.isLt; omega⟩ : Fin 131072) := Fin.ext hi0
  have hq : i 1 = q := Fin.ext hi1
  rw [hr, hq]
  exact congrArg₂ (fun (x : Fin 64 → EReal) (ee : Fin 512 → EReal) => mixRow x (fun k d => x1 (ix2 k d)) (fun d k => x2 (ix2 d k)) ee q)
      (funext fun d => h0 p d) (funext fun k => h3 k) |>.trans
    (congrArg₂ (fun (e : Fin 512 → Fin 64 → EReal) (eT : Fin 64 → Fin 512 → EReal) => mixRow _ e eT _ q)
      (funext fun k => funext fun d => h1 k d) (funext fun d => funext fun k => h2 d k))

/-- WHAT POINT `t` WRITES BACK is block `t` of the flat result. -/
theorem flushed_eq (c : Dev nD) (t : Fin cfg0.N) :
    (dats m 0 c).flushed 4 t = ((cfg0.win 4).blk t).view.read (Elt Ideal) (flatResult m c) := by
  show (cfg0.win 4).cut (grid0.coords t) ((dats m 0 c).after 4 t) = _
  rw [after0_4]
  unfold out0_4
  rw [View.canon_unit_zero hz]
  simp only [View.ld_unit_zero (S := S2048x64) hz, View.ld_unit_zero (S := S512x64) hz, View.ld_unit_zero (S := S64x512) hz,
    View.ld_unit_zero (S := S1x512) hz]
  obtain ⟨e0, e1, e2, e3, e4, e5, e6, e7, e8, e9⟩ := idx_facts t
  funext j
  refine block_of_flat (V m c main_v1) (V m c main_arg1) (V m c main_v2) (V m c main_v6) _ _ _ _ (win0_4.index t (0 : Fin 2)) e9
    ?_ ?_ ?_ ?_ j (((cfg0.win 4).blk t).view.emb j) ?_ ?_
  · intro p d
    show V m c main_v1 (((cfg0.win 0).blk t).view.emb (ix2 p d)) = V m c main_v1 _
    refine congrArg (V m c main_v1) (funext fun a => Fin.ext ?_)
    match a with
    | ⟨0, _⟩ => show win0_0.index t (0 : Fin 2) * 2048 + 1 * p.val = win0_4.index t (0 : Fin 2) * 2048 + p.val; omega
    | ⟨1, _⟩ => show win0_0.index t (1 : Fin 2) * 64 + 1 * d.val = d.val; omega
  · intro k d
    show V m c main_arg1 (((cfg0.win 1).blk t).view.emb (ix2 k d)) = V m c main_arg1 _
    refine congrArg (V m c main_arg1) (funext fun a => Fin.ext ?_)
    match a with
    | ⟨0, _⟩ => show win0_1.index t (0 : Fin 2) * 512 + 1 * k.val = k.val; omega
    | ⟨1, _⟩ => show win0_1.index t (1 : Fin 2) * 64 + 1 * d.val = d.val; omega
  · intro d k
    show V m c main_v2 (((cfg0.win 2).blk t).view.emb (ix2 d k)) = V m c main_v2 _
    refine congrArg (V m c main_v2) (funext fun a => Fin.ext ?_)
    match a with
    | ⟨0, _⟩ => show win0_2.index t (0 : Fin 2) * 64 + 1 * d.val = d.val; omega
    | ⟨1, _⟩ => show win0_2.index t (1 : Fin 2) * 512 + 1 * k.val = k.val; omega
  · intro k
    show V m c main_v6 (((cfg0.win 3).blk t).view.emb (ix2 (0 : Fin 1) k)) = V m c main_v6 _
    refine congrArg (V m c main_v6) (funext fun a => Fin.ext ?_)
    match a with
    | ⟨0, _⟩ => show win0_3.index t (0 : Fin 2) * 1 + 1 * 0 = 0; omega
    | ⟨1, _⟩ => show win0_3.index t (1 : Fin 2) * 512 + 1 * k.val = k.val; omega
  · show win0_4.index t (0 : Fin 2) * 2048 + 1 * (j 0).val = win0_4.index t (0 : Fin 2) * 2048 + (j 0).val; omega
  · show win0_4.index t (1 : Fin 2) * 64 + 1 * (j 1).val = (j 1).val; omega

/-- An index of the result is in point `t`'s block iff each coordinate is in the block's range on its axis. -/
theorem mem_blk (t : Fin cfg0.N) (i : S131072x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v7).slice (win0_4.rect t)).set ↔ _
  rw [View.set_slice_whole, Rect.mem_set_unit]
  exact Iff.rfl

/-- The 64 blocks of rows tile the result: row `r` is in the block of point `r / 2048`. -/
theorem cover (i : S131072x64.Idx) : ∃ t : Fin cfg0.N, (cfg0.win 4).flush t = true ∧ i ∈ ((cfg0.win 4).blk t).view.set := by
  have hi0 : (i 0).val < 131072 := (i 0).isLt
  have hi1 : (i 1).val < 64 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

/-- THE RESULT ARRAY of the call, after the run. -/
theorem final (c : Dev nD) : (dats m 0 c).arrAt 4 cfg0.N = flatResult m c :=
  (dats m 0 c).arrAt_eq_of_cover 4 (flatResult m c) (fun t _ => flushed_eq m c t) cover

/-- The two host lines after the call, on the call's result: the flat [131072, 64] array regrouped as
    [8, 16, 32, 32, 64] and its last axis moved to the second place. -/
theorem tail_eq (c : Dev nD) :
    Pipeline.afterTail₀ cfgs (dats m) 0 (V0 m) [hostOps1] c main_v9 = unflatten ((dats m 0 c).arrAt 4 cfg0.N) := by
  unfold Pipeline.afterTail₀
  show StableHlo.after hostOps1 _ (Proc.devRef .tc main_v9) = _
  after_results
  rw [Pipeline.withArrays_arr spec0 launch0.win.arr_inj c _ _ 4]
  rfl

/-- THE KERNEL'S RUN, read: every weakly fair execution ends with the result at `unflatten` of the flat result and the
    arguments unchanged. -/
theorem run : θ_run defs (onTc (τ := τ) (main (F := Ideal))) ⟨m, fun _ => 0, ρ⟩ fun r => ∀ c : Dev nD,
      r.2.mem ((c.tc : Thread nD τ).loc main_v9) = unflatten (flatResult m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans
        ((tail_eq m c).trans (congrArg unflatten (final m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefRows.lean ====
/-
  The reference, read entry by entry on the extended reals: before its closing reshape and transpose, the reference's
  [131072, 64] result is the row function `Cert.Codebook.flatMix` of the flattened input, the codebook, its transpose and
  its squared norms. Each operation is read at an index (the generated one-operation lemmas; the maximum along a row by
  hand, as the fold of `max` from −∞ over the row), and a float sum's initial value is the zero word.
-/
import proofs.«122749_j70703751627105_1_alg».proof.Proof.Gen.ReferenceIdeal.Read
import proofs.«122749_j70703751627105_1_alg».proof.Proof.Spec
import Idealize.ShloMosaic.PureOps.Ideal.Laws
import Idealize.ShloMosaic.Lib.ValueIdx

noncomputable section

open scoped BigOperators

namespace Cert.ReferenceIdeal.Rows

open Cert.ReferenceIdeal Cert.ReferenceIdeal.Gen Cert.ReferenceIdeal.Read Idealize.ShloMosaic Idealize.ShloMosaic.ValueIdx Cert.Codebook

variable (x0 : (⟨S8x64x16x32x32, .f32⟩ : BufTy).Contents (Elt Ideal)) (x1 : (⟨S512x64, .f32⟩ : BufTy).Contents (Elt Ideal))

/-- The flattened input's row `r`, the transposed codebook and the codebook's squared norms, as the reference's stages. -/
abbrev rowOf (r : Fin 131072) : Fin 64 → EReal := fun d => val_main_v1 (F := Ideal) x0 (ix2 r d)
abbrev eTOf : Fin 64 → Fin 512 → EReal := fun d k => val_main_v11 (F := Ideal) x1 (ix2 d k)
abbrev eeOf : Fin 512 → EReal := fun k => val_main_v7 (F := Ideal) x1 (ix2 (0 : Fin 1) k)

/-- The zero word is the extended real 0, as the initial value of each of the reference's sums. -/
theorem cst_zero : val_main_cst (F := Ideal) (Shape.Idx.first h_S_) = 0 := Ideal.ofBits_zero_f32
theorem cst4_zero : val_main_cst_4 (F := Ideal) (Shape.Idx.first h_S_) = 0 := Ideal.ofBits_zero_f32

/-- Entry (r, k) of the reference's scores is the score of row `r` against codebook entry `k`. -/
theorem scores_apply (r : Fin 131072) (k : Fin 512) :
    val_main_v15 (F := Ideal) x0 x1 (ix2 r k) = sqDist (rowOf x0 r) (eTOf x1) (eeOf x1) k := by
  have e1 : ∀ d : Fin 64, idx_main_v3 (idx_main_v4 (idx_main_v8 (ix2 r k))) d = ix2 r d := fun d =>
    funext fun a => Fin.ext (by match a with | ⟨0, _⟩ => rfl | ⟨1, _⟩ => rfl)
  have e2 : idx_main_v9 (ix2 r k) = ix2 (0 : Fin 1) k :=
    funext fun a => Fin.ext (by match a with | ⟨0, _⟩ => rfl | ⟨1, _⟩ => rfl)
  have e3 : ∀ d : Fin 64, lidx_main_v12 (ix2 r k) d = ix2 r d := fun d =>
    funext fun a => Fin.ext (by match a with | ⟨0, _⟩ => rfl | ⟨1, _⟩ => rfl)
  have e4 : ∀ d : Fin 64, ridx_main_v12 (ix2 r k) d = ix2 d k := fun d =>
    funext fun a => Fin.ext (by match a with | ⟨0, _⟩ => rfl | ⟨1, _⟩ => rfl)
  rw [val_main_v15_apply, val_main_v10_apply, val_main_v14_apply, val_main_v8_apply, val_main_v9_apply, val_main_v4_apply,
    val_main_v3_apply, val_main_v13_apply, val_main_v12_apply, cst_zero, zero_add]
  simp only [e1, e2, e3, e4, val_main_v2_apply]
  rfl

/-- The reference's row maximum (from −∞, once more against −∞) at row `r`. -/
theorem rowMax_apply (r : Fin 131072) :
    val_main_v18 (F := Ideal) x0 x1 (ix1 r) = rowMaxOf (fun k => val_main_v15 (F := Ideal) x0 x1 (ix2 r k)) := by
  have hred : S131072x512.Reduces [1] S131072 := by decide
  have hl : ∀ k : Fin (S131072x512.size 1), hred.lift (ix1 r) k = ix2 r (⟨k.val, k.isLt⟩ : Fin 512) := fun k => by
    funext c; apply Fin.ext
    fin_cases c <;> rfl
  rw [val_main_v18_apply]
  unfold rowMaxOf
  refine congrArg₂ max rfl ?_
  unfold val_main_v16
  refine (Host.reduce_eq_fold_single (FloatOps.maximumf (F := Ideal) (φ := .f32)) (val_main_v15 (F := Ideal) x0 x1) (val_main_cst_2 (F := Ideal))
    reducesTo_S131072x512_S131072_d1 hred h_S_ (ix1 r)).trans ?_
  exact congrArg (fun f => (Finset.univ : Finset (Fin 512)).fold max (Ideal.ofBits .f32 0xFF800000#32) f)
    (funext fun k => congrArg (val_main_v15 (F := Ideal) x0 x1) (hl k))

/-- Entry (r, k) of the reference's softmax is the softmax of row `r`'s scores at `k`. -/
theorem softmax_apply (r : Fin 131072) (k : Fin 512) :
    val_main_v26 (F := Ideal) x0 x1 (ix2 r k) = softmaxOf (fun k' => val_main_v15 (F := Ideal) x0 x1 (ix2 r k')) k := by
  have hexp : ∀ k' : Fin 512, val_main_v22 (F := Ideal) x0 x1 (ix2 r k')
      = Ideal.exp (val_main_v15 (F := Ideal) x0 x1 (ix2 r k') - rowMaxOf (fun k => val_main_v15 (F := Ideal) x0 x1 (ix2 r k))) := fun k' => by
    have e : idx_main_v19 (idx_main_v20 (ix2 r k')) = ix1 r :=
      funext fun a => Fin.ext (by match a with | ⟨0, _⟩ => rfl)
    have h20 : val_main_v20 (F := Ideal) x0 x1 (ix2 r k') = rowMaxOf (fun k => val_main_v15 (F := Ideal) x0 x1 (ix2 r k)) := by
      rw [val_main_v20_apply, val_main_v19_apply]
      exact (congrArg (val_main_v18 (F := Ideal) x0 x1) e).trans (rowMax_apply x0 x1 r)
    simp only [val_main_v22_apply, val_main_v21_apply, h20, Ideal.hostUnary_exp_def, Ideal.subf_def]
  have e1 : idx_main_v24 (idx_main_v25 (ix2 r k)) = ix1 r :=
    funext fun a => Fin.ext (by match a with | ⟨0, _⟩ => rfl)
  have e2 : ∀ k' : Fin 512, idx_main_v23 (ix1 r) k' = ix2 r k' := fun k' =>
    funext fun a => Fin.ext (by match a with | ⟨0, _⟩ => rfl | ⟨1, _⟩ => rfl)
  have hsum : val_main_v25 (F := Ideal) x0 x1 (ix2 r k)
      = ∑ k' : Fin 512, Ideal.exp (val_main_v15 (F := Ideal) x0 x1 (ix2 r k') - rowMaxOf (fun k => val_main_v15 (F := Ideal) x0 x1 (ix2 r k))) := by
    simp only [val_main_v25_apply, val_main_v24_apply, e1, val_main_v23_apply, cst4_zero, zero_add, e2, hexp]
  simp only [val_main_v26_apply, Ideal.hostDivf_def, hexp, hsum, softmaxOf]

/-- Entry (r, q) of the reference's result before its closing reshape and transpose. -/
theorem flat_apply (r : Fin 131072) (q : Fin 64) :
    val_main_v27 (F := Ideal) x0 x1 (ix2 r q) = mixRow (rowOf x0 r) (fun k d => x1 (ix2 k d)) (eTOf x1) (eeOf x1) q := by
  have e1 : ∀ k : Fin 512, lidx_main_v27 (ix2 r q) k = ix2 r k := fun k =>
    funext fun a => Fin.ext (by match a with | ⟨0, _⟩ => rfl | ⟨1, _⟩ => rfl)
  have e2 : ∀ k : Fin 512, ridx_main_v27 (ix2 r q) k = ix2 k q := fun k =>
    funext fun a => Fin.ext (by match a with | ⟨0, _⟩ => rfl | ⟨1, _⟩ => rfl)
  rw [val_main_v27_apply]
  unfold mixRow
  refine Finset.sum_congr rfl fun k _ => ?_
  rw [e1, e2, softmax_apply]
  exact congrArg (fun g => softmaxOf g k * x1 (ix2 k q)) (funext fun k' => scores_apply x0 x1 r k')

/-- THE REFERENCE'S FLAT RESULT is the row function on every row. -/
theorem flat_eq :
    val_main_v27 (F := Ideal) x0 x1
      = flatMix (val_main_v1 (F := Ideal) x0) x1 (val_main_v11 (F := Ideal) x1) (eeOf x1) := by
  funext i
  obtain ⟨r, q, rfl⟩ : ∃ (r : Fin 131072) (q : Fin 64), i = ix2 r q := ⟨i 0, i 1, eq_ix2 i⟩
  exact flat_apply x0 x1 r q

end Cert.ReferenceIdeal.Rows

end
-- ==== Proof.Bridge.lean ====
/-
  The two programs prepare the same arrays and compute the same function of them.

  Before its call the kernel's program flattens the input ([8, 64, 16, 32, 32] with the channel axis moved last, seen as
  [131072, 64]), transposes the codebook, and sums the codebook's squares along each entry, kept as one row [1, 512].
  The reference computes the same flattened input and the same transposed codebook, and the same squared norms as the
  row [1, 512] of a different spelling (a vector broadcast along a new leading axis, where the kernel's program
  transposes a column); read at (0, k) both are the squared norm of entry `k`. With `Whole.run` (the kernel's result is
  `unflatten` of `flatMix` of those arrays) and `Rows.flat_eq` (so is the reference's), the two results are equal.
-/
import proofs.«122749_j70703751627105_1_alg».proof.Proof.KernelWhole
import proofs.«122749_j70703751627105_1_alg».proof.Proof.RefRows
import Idealize.ShloMosaic.Lib.ValueLayout

noncomputable section

namespace Cert.Bridge

open Idealize.ShloMosaic Idealize.ShloMosaic.TcCoe Idealize.SL.Sem Idealize.ShloMosaic.ValueIdx Cert.Codebook

variable (m : (ℓ : Loc Cert.KernelIdeal.nD Cert.KernelIdeal.τ Cert.KernelIdeal.sig) → Buf (Elt Ideal) ℓ)

/-- The two argument arrays as launched. -/
abbrev inputs (c : Dev Cert.KernelIdeal.nD) := m ((c.tc : Thread Cert.KernelIdeal.nD Cert.KernelIdeal.τ).loc Cert.KernelIdeal.main_arg0)
abbrev codebook (c : Dev Cert.KernelIdeal.nD) := m ((c.tc : Thread Cert.KernelIdeal.nD Cert.KernelIdeal.τ).loc Cert.KernelIdeal.main_arg1)

/-- The flattened input the call finds is the reference's. -/
theorem found_rows (c : Dev Cert.KernelIdeal.nD) :
    Cert.KernelIdeal.Gen.V m c Cert.KernelIdeal.main_v1 = Cert.ReferenceIdeal.Read.val_main_v1 (F := Ideal) (inputs m c) := by
  show StableHlo.after Cert.KernelIdeal.Gen.hostOps0 (fun b => m (c, b)) (Proc.devRef .tc Cert.KernelIdeal.main_v1) = _
  after_results
  rfl

/-- The transposed codebook the call finds is the reference's. -/
theorem found_transposed (c : Dev Cert.KernelIdeal.nD) :
    Cert.KernelIdeal.Gen.V m c Cert.KernelIdeal.main_v2 = Cert.ReferenceIdeal.Read.val_main_v11 (F := Ideal) (codebook m c) := by
  show StableHlo.after Cert.KernelIdeal.Gen.hostOps0 (fun b => m (c, b)) (Proc.devRef .tc Cert.KernelIdeal.main_v2) = _
  after_results
  rfl

/-- The row of squared norms the call finds: the entries' sums of squares as a column, transposed. -/
theorem found_norms_term (c : Dev Cert.KernelIdeal.nD) :
    Cert.KernelIdeal.Gen.V m c Cert.KernelIdeal.main_v6
      = transpose Cert.KernelIdeal.S1x512 [1, 0]
          (broadcastInDim Cert.KernelIdeal.S512x1 ![0] Cert.KernelIdeal.Gen.bcast_S512_S512x1_0
            (Cert.ReferenceIdeal.Read.val_main_v6 (F := Ideal) (codebook m c)))
          Cert.KernelIdeal.Gen.transposes_S512x1_S1x512_1_0 := by
  show StableHlo.after Cert.KernelIdeal.Gen.hostOps0 (fun b => m (c, b)) (Proc.devRef .tc Cert.KernelIdeal.main_v6) = _
  after_results
  rfl

/-- Read at (0, k), the kernel's row of squared norms and the reference's are both the squared norm of entry `k`. -/
theorem found_norms (c : Dev Cert.KernelIdeal.nD) (k : Fin 512) :
    Cert.KernelIdeal.Gen.V m c Cert.KernelIdeal.main_v6 (ix2 (0 : Fin 1) k)
      = Cert.ReferenceIdeal.Read.val_main_v7 (F := Ideal) (codebook m c) (ix2 (0 : Fin 1) k) := by
  have e : Cert.ReferenceIdeal.Read.idx_main_v7 (ix2 (0 : Fin 1) k) = ix1 k :=
    funext fun a => Fin.ext (by match a with | ⟨0, _⟩ => rfl)
  rw [found_norms_term, Cert.ReferenceIdeal.Read.val_main_v7_apply, e]
  generalize Cert.ReferenceIdeal.Read.val_main_v6 (F := Ideal) (codebook m c) = R
  refine (transpose_ix2_apply _ Cert.KernelIdeal.Gen.transposes_S512x1_S1x512_1_0 (0 : Fin 1) k).trans ?_
  exact broadcastInDim_apply _ Cert.KernelIdeal.Gen.bcast_S512_S512x1_0 R (ix2 k (0 : Fin 1)) (ix1 k) (fun a => match a with
    | ⟨0, _⟩ => by show k.val = if (512 : Nat) = 1 then 0 else k.val; rw [if_neg (by decide)])

/-- THE REFERENCE'S RESULT is the kernel's: `unflatten` of the row function of the same arrays. -/
theorem reference_result (c : Dev Cert.KernelIdeal.nD) :
    Cert.ReferenceIdeal.Read.val_main_v29 (F := Ideal) (inputs m c) (codebook m c)
      = unflatten (Cert.KernelIdeal.Whole.flatResult m c) := by
  show unflatten (Cert.ReferenceIdeal.Read.val_main_v27 (F := Ideal) (inputs m c) (codebook m c)) = _
  rw [Cert.ReferenceIdeal.Rows.flat_eq]
  refine congrArg unflatten ?_
  have hee : (fun k => Cert.KernelIdeal.Gen.V m c Cert.KernelIdeal.main_v6 (ix2 (0 : Fin 1) k))
      = Cert.ReferenceIdeal.Rows.eeOf (codebook m c) := funext fun k => found_norms m c k
  show _ = flatMix (Cert.KernelIdeal.Gen.V m c Cert.KernelIdeal.main_v1) (Cert.KernelIdeal.Gen.V m c Cert.KernelIdeal.main_arg1)
    (Cert.KernelIdeal.Gen.V m c Cert.KernelIdeal.main_v2) (fun k => Cert.KernelIdeal.Gen.V m c Cert.KernelIdeal.main_v6 (ix2 (0 : Fin 1) k))
  rw [hee, found_rows, found_transposed, Cert.KernelIdeal.Gen.V_main_arg1]

end Cert.Bridge

end
-- ==== Proof.lean ====
/- The soft codebook lookup (`Cert.Codebook`, Proof/Spec.lean): every row of the flattened input is scored against the 512
   codebook entries (‖x‖² + ‖e_k‖² − 2⟨x, e_k⟩), the scores go through a softmax along the row, and the row's result is
   the codebook entries combined with those weights. The kernel computes it block by block of 2048 rows, its matrix
   products on operands rounded to bf16; the reference computes it on the whole flat array. On the extended reals a
   change of float format is the identity, a matrix product into the zero accumulator and the host's `dot_general` are the
   same sum of products, a lane sum and the host's sum are the same sum, and a lane maximum and the host's maximum the same
   fold of `max`: both programs compute `unflatten (flatMix …)` of the same prepared arrays, operation for operation, so
   no law of the extended reals beyond these readings is needed and the precondition is never opened.
   The frames of the two kernel programs are the generated ones; the reference's frame is its generated run with the
   result dropped; the idealization rewrote nothing, so `preserves` is `True`. -/
import proofs.«122749_j70703751627105_1_alg».proof.Defs
import proofs.«122749_j70703751627105_1_alg».proof.Proof.Gen.Kernel
import proofs.«122749_j70703751627105_1_alg».proof.Proof.Gen.Kernel.Frame
import proofs.«122749_j70703751627105_1_alg».proof.Proof.Gen.KernelIdeal
import proofs.«122749_j70703751627105_1_alg».proof.Proof.Gen.KernelIdeal.Frame
import proofs.«122749_j70703751627105_1_alg».proof.Proof.Gen.ReferenceIdeal
import proofs.«122749_j70703751627105_1_alg».proof.Proof.Gen.Pre_finite_inputs
import proofs.«122749_j70703751627105_1_alg».proof.Proof.Gen.ReferenceIdeal.Run
import proofs.«122749_j70703751627105_1_alg».proof.Proof.Gen.ReferenceIdeal.Read
import proofs.«122749_j70703751627105_1_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the two arguments both programs end with the result at `unflatten` of the row function
    of the same prepared arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Codebook.unflatten (Cert.KernelIdeal.Whole.flatResult m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  exact Cert.Bridge.reference_result m c

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
